-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S8192x4096, .f32⟩
  | .hbm, ⟨9, _⟩ => ⟨S8192x4096, .bf16⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What the kernel body leaves behind at a grid point, case by case, as values.

  The grid is (row tile i, column tile j, reduction step k), k innermost. At k = 0 the body clears its
  accumulator scratch, reads it back and adds the product of the two operand blocks; at k = 1, 2 it adds the
  product to what the previous point left; at k = 3 it does the same and then writes the output block: the
  accumulator plus the bias row. Each store overwrites its whole buffer, so what a buffer ends holding is the
  payload of the last store into it, with every load read back as the contents it found.
-/
import proofs.«133105_j51857435132115_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Lora

open Cert.KernelIdeal Cert.KernelIdeal.Gen

variable {F : FTy → Type} [FloatOps F]

/-- Both coordinates of the offset `![0, 0]` are zero. -/
theorem hz : (![0, 0] : Fin 2 → Nat) = fun _ => 0 := funext fun a => by fin_cases a <;> rfl

/-- The first point of a run of four (the accumulator is cleared, read back, and the first partial product added):
    the scratch is left at the cleared block plus the product of the two operand blocks. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point: the scratch found at `xs0` is left at `xs0` plus the product of the two operand blocks. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h7.read_unread, h3.read_unread, h4.read_unread, View.ld_unit_zero (S := S1024x1024) hz]

/-- The last point of a run of four: the scratch is updated as at a middle point, -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h7.read_unread, h3.read_unread, h4.read_unread, View.ld_unit_zero (S := S1024x1024) hz]

/-- and the output block is the updated scratch read back plus the bias row laid along every row. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h7.read_unread, h3.read_unread, h4.read_unread, h5.read_unread, View.ld_unit_zero (S := S1024x1024) hz, View.ld_unit_zero (S := S1x1024) hz]

end Cert.KernelIdeal.Lora

end
-- ==== Proof.Payloads.lean ====
/-
  The body's three stored values read at an entry, on the extended reals.

  The cleared accumulator is zero everywhere. The update of the accumulator at entry (p, q) is the old entry plus
  the sum over the 1024 columns j of the block of x at (p, j) times the block of the weight at (q, j): the product
  contracts the SECOND axis of both blocks (x times the weight's transpose). The output block at (p, q) is the
  accumulator there plus the bias row at q.
-/
import proofs.«133105_j51857435132115_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Lora

open Cert.KernelIdeal Cert.KernelIdeal.Gen

/-- The cleared accumulator is zero at every entry. -/
theorem cleared_apply (y : S1024x1024.Idx) : k0_pay1 (F := Ideal) y = 0 := by
  unfold k0_pay1
  simp only [shapeCast_self]
  exact Ideal.ofBits_zero_f32

/-- The block product's first operand at output entry `i` has row `i 0`, whatever the contraction index. -/
theorem blockDot_lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- Its second operand there has row `i 1`: the second operand's rows are the output's columns. -/
theorem blockDot_rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The block product's first operand at output entry (p, q) and contraction index j is entry (p, j). -/
theorem blockDot_lhs (p q : Fin 1024) (k : Fin 1024) :
    dot_S1024x1024_S1024x1024_S1024x1024_1_1_0_0_n_n.lhsIdx (ix2 p q)
      ((contrEquiv1 dot_S1024x1024_S1024x1024_S1024x1024_1_1_0_0_n_n 1024 rfl rfl).symm k) = ix2 p k := by
  have hk := contrEquiv1_symm_val dot_S1024x1024_S1024x1024_S1024x1024_1_1_0_0_n_n 1024 rfl rfl k
  refine funext fun a => Fin.ext ?_
  match a with
  | ⟨0, _⟩ => exact blockDot_lhs_row _ _
  | ⟨1, _⟩ => exact (dot_S1024x1024_S1024x1024_S1024x1024_1_1_0_0_n_n.lhsIdx_val_of_single rfl _ _).trans hk

/-- Its second operand there is entry (q, j). -/
theorem blockDot_rhs (p q : Fin 1024) (k : Fin 1024) :
    dot_S1024x1024_S1024x1024_S1024x1024_1_1_0_0_n_n.rhsIdx (ix2 p q)
      ((contrEquiv1 dot_S1024x1024_S1024x1024_S1024x1024_1_1_0_0_n_n 1024 rfl rfl).symm k) = ix2 q k := by
  have hk := contrEquiv1_symm_val dot_S1024x1024_S1024x1024_S1024x1024_1_1_0_0_n_n 1024 rfl rfl k
  refine funext fun a => Fin.ext ?_
  match a with
  | ⟨0, _⟩ => exact blockDot_rhs_row _ _
  | ⟨1, _⟩ => exact (dot_S1024x1024_S1024x1024_S1024x1024_1_1_0_0_n_n.rhsIdx_val_of_single rfl _ _).trans hk

/-- The updated accumulator at (p, q): the old entry plus the row-by-row product of the two blocks. -/
theorem update_apply (v3 : Vec Ideal S1024x1024 .f32) (v4 v6 : Vec Ideal S1024x1024 .bf16) (p q : Fin 1024) :
    k0_pay2 (F := Ideal) v3 v4 v6 (ix2 p q) = v3 (ix2 p q) + ∑ j : Fin 1024, v4 (ix2 p j) * v6 (ix2 q j) := by
  unfold k0_pay2
  simp only [shapeCast_self]
  show v3 (ix2 p q) + FloatOps.matmul dot_S1024x1024_S1024x1024_S1024x1024_1_1_0_0_n_n none v4 v6
      (constant (F := Ideal) S1024x1024 .f32 0x00000000#32) (ix2 p q) = _
  refine congrArg (v3 (ix2 p q) + ·) ?_
  refine (Ideal.matmul_constant_zero_apply (φ₁ := .bf16) (φ₂ := .bf16) dot_S1024x1024_S1024x1024_S1024x1024_1_1_0_0_n_n none v4 v6 (ix2 p q)).trans ?_
  rw [← Equiv.sum_comp (contrEquiv1 dot_S1024x1024_S1024x1024_S1024x1024_1_1_0_0_n_n 1024 rfl rfl).symm]
  refine Finset.sum_congr rfl fun k _ => ?_
  rw [blockDot_lhs, blockDot_rhs]

/-- The output block at (p, q): the accumulator there plus the bias row at q. -/
theorem biased_apply (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  simp only [shapeCast_self]
  show v16 (ix2 p q) + broadcastTo S1024x1024 v17 broadcasts_S1x1024_S1024x1024 (ix2 p q) = _
  exact congrArg (v16 (ix2 p q) + ·) (broadcastTo_1b_ab_apply v17 _ p q)

end Cert.KernelIdeal.Lora

end
-- ==== Proof.Spec.lean ====
/-
  The mathematics of the claim, over plain arrays of extended reals and with no program in sight.

  A linear layer on 8192 flattened rows: out(r, n) = sum over c < 4096 of X(r, c) * W(n, c), plus b(n).
  The kernel takes the sum over c in four runs of 1024 columns, adding run after run to an accumulator that
  starts at zero; the reference takes it in one go. Addition of extended reals is commutative and associative,
  so the two agree whatever the entries are: nothing here needs the entries to be finite.
-/
import Idealize.ShloMosaic.PureOps.Ideal
import Idealize.ShloMosaic.Lib.ValueIdx

noncomputable section

namespace Cert.LoraLinear

open Idealize.ShloMosaic Idealize.ShloMosaic.ValueIdx

/-- Row `p` of row tile `a` (tiles of 1024 rows, eight of them; the tile number is taken modulo 8). -/
def tile8 (a : ℕ) (p : Fin 1024) : Fin 8192 := ⟨1024 * (a % 8) + p.val, by have := p.isLt; omega⟩

/-- Column `q` of column tile `a` (tiles of 1024 columns, four of them; the tile number is taken modulo 4). -/
def tile4 (a : ℕ) (q : Fin 1024) : Fin 4096 := ⟨1024 * (a % 4) + q.val, by have := q.isLt; omega⟩

/-- Row `s` of batch `b` among the 8192 flattened rows. -/
def flatRow (b : Fin 4) (s : Fin 2048) : Fin 8192 := ⟨2048 * b.val + s.val, by have := b.isLt; have := s.isLt; omega⟩

/-- A sum over the 4096 columns is the sum over the four tiles of the sums over each tile's 1024 columns. -/
theorem sum_tile4 {M : Type*} [AddCommMonoid M] (f : Fin 4096 → M) :
    ∑ c, f c = ∑ k : Fin 4, ∑ q : Fin 1024, f (tile4 k.val q) := by
  rw [← Equiv.sum_comp (finProdFinEquiv : Fin 4 × Fin 1024 ≃ Fin 4096) f, Fintype.sum_prod_type]
  refine Finset.sum_congr rfl fun k _ => Finset.sum_congr rfl fun q _ => congrArg f (Fin.ext ?_)
  show q.val + 1024 * k.val = 1024 * (k.val % 4) + q.val
  have := k.isLt
  omega

variable (X : (⟨2, ![8192, 4096]⟩ : Shape).Idx → EReal) (W : (⟨2, ![4096, 4096]⟩ : Shape).Idx → EReal)
  (b : (⟨2, ![1, 4096]⟩ : Shape).Idx → EReal)

/-- The partial product of reduction step `k`: row `r` of `X` against row `n` of `W` over column tile `k`. -/
def part (r : Fin 8192) (n : Fin 4096) (k : ℕ) : EReal :=
  ∑ q : Fin 1024, X (ix2 r (tile4 k q)) * W (ix2 n (tile4 k q))

/-- Only the tile number modulo 4 matters. -/
theorem part_congr (r : Fin 8192) (n : Fin 4096) {k k' : ℕ} (h : k % 4 = k' % 4) : part X W r n k = part X W r n k' := by
  have e : ∀ q, tile4 k q = tile4 k' q := fun q => Fin.ext (by
    show 1024 * (k % 4) + q.val = 1024 * (k' % 4) + q.val
    rw [h])
  unfold part
  simp only [e]

/-- The accumulator after reduction step `k`: zero plus the first partial product, then one more at each step. -/
def acc (r : Fin 8192) (n : Fin 4096) : ℕ → EReal
  | 0 => 0 + part X W r n 0
  | k + 1 => acc r n k + part X W r n (k + 1)

/-- The linear layer on the flattened rows. -/
def rowsLinear : (⟨2, ![8192, 4096]⟩ : Shape).Idx → EReal :=
  fun i => (∑ c : Fin 4096, X (ix2 (i 0) c) * W (ix2 (i 1) c)) + b (ix2 0 (i 1))

/-- The accumulator after the fourth step, plus the bias, is the linear layer's entry. -/
theorem acc_three_add_bias (r : Fin 8192) (n : Fin 4096) :
    acc X W r n 3 + b (ix2 0 n) = rowsLinear X W b (ix2 r n) := by
  show (((0 + part X W r n 0) + part X W r n 1) + part X W r n 2) + part X W r n 3 + b (ix2 0 n)
    = (∑ c : Fin 4096, X (ix2 r c) * W (ix2 n c)) + b (ix2 0 n)
  rw [sum_tile4, Fin.sum_univ_four, zero_add]
  rfl

/-- The same layer on rows indexed by (batch, position): what both programs return. -/
def linear3 (x : (⟨3, ![4, 2048, 4096]⟩ : Shape).Idx → EReal) (bias : (⟨1, ![4096]⟩ : Shape).Idx → EReal) :
    (⟨3, ![4, 2048, 4096]⟩ : Shape).Idx → EReal :=
  fun i => (∑ c : Fin 4096, x (ix3 (i 0) (i 1) c) * W (ix2 (i 2) c)) + bias (ix1 (i 2))

/-- When `X` is `x` with batch and position flattened into one row axis and `b` is `bias` as one row, the layer on
    the flattened rows read at row (batch, position) is the layer on (batch, position). -/
theorem rowsLinear_flat (x : (⟨3, ![4, 2048, 4096]⟩ : Shape).Idx → EReal) (bias : (⟨1, ![4096]⟩ : Shape).Idx → EReal)
    (hX : ∀ (bt : Fin 4) (s : Fin 2048) (c : Fin 4096), X (ix2 (flatRow bt s) c) = x (ix3 bt s c))
    (hb : ∀ n : Fin 4096, b (ix2 0 n) = bias (ix1 n)) (bt : Fin 4) (s : Fin 2048) (o : Fin 4096) :
    rowsLinear X W b (ix2 (flatRow bt s) o) = linear3 W x bias (ix3 bt s o) := by
  show (∑ c : Fin 4096, X (ix2 (flatRow bt s) c) * W (ix2 o c)) + b (ix2 0 o)
    = (∑ c : Fin 4096, x (ix3 bt s c) * W (ix2 o c)) + bias (ix1 o)
  rw [hb o]
  exact congrArg (· + bias (ix1 o)) (Finset.sum_congr rfl fun c _ => by rw [hX bt s c])

end Cert.LoraLinear

end
-- ==== Proof.Blocks.lean ====
/-
  The arrays the kernel's four windows move over, and each window's block at a grid point read at an entry.

  The grid point `t` (of 128, the reduction step innermost) is row tile `t / 16`, column tile `t / 4 mod 4`,
  reduction step `t mod 4`. The block of x at `t` is rows of tile `t / 16`, columns of tile `t mod 4`; the block
  of the weight is rows of tile `t / 4 mod 4`, columns of tile `t mod 4`; the block of the bias row is columns of
  tile `t / 4 mod 4`. Before the region the host flattens x to 8192 rows and narrows it, forms the weight
  (the old weight plus the low-rank product) and narrows it, and lays the bias out as one row.
-/
import proofs.«133105_j51857435132115_2_alg».proof.Proof.Gen.KernelIdeal.Frame
import proofs.«133105_j51857435132115_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Lora

open Cert.KernelIdeal Cert.KernelIdeal.Gen Cert.LoraLinear

variable {F : FTy → Type} [FloatOps F]
variable (m : (ℓ : Loc nD τ sig) → Buf (Elt F) ℓ)

/-! ## The windows' arrays as the region finds them -/

/-- The first window's array: x with batch and position flattened to one row axis, narrowed. -/
theorem V_rows (c : Dev nD) : (V m c main_v4 : S8192x4096.Idx → Elt F .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v4) = _
  after_results
  rfl

/-- The second window's array: the old weight plus the product of the two low-rank factors, narrowed. -/
theorem V_weight (c : Dev nD) : (V m c main_v2 : S4096x4096.Idx → Elt F .bf16)
    = truncf .bf16 (addf (m ((c : Thread nD τ).loc main_arg1))
        (Host.dotGeneral dot_S4096x16_S16x4096_S4096x4096_1_0_0_1_n_n none (m ((c : Thread nD τ).loc main_arg3)) (m ((c : Thread nD τ).loc main_arg4))))
      bitsLt_bf16_f32 := by
  show StableHlo.after hostOps0 (fun b => m (c, b)) (Proc.devRef .tc main_v2) = _
  after_results

/-- The third window's array: the bias as one row. -/
theorem V_biasRow (c : Dev nD) : (V m c main_v5 : S1x4096.Idx → Elt F .f32)
    = shapeCast S1x4096 (m ((c : Thread nD τ).loc main_arg2)) shapeCasts_S4096_S1x4096 := by
  show StableHlo.after hostOps0 (fun b => m (c, b)) (Proc.devRef .tc main_v5) = _
  after_results
  rfl

/-! ## The block indices at a grid point -/

/-- The four index maps over the grid, decided point by point. -/
theorem idx_facts : ∀ t : Fin cfg0.N,
    win0_0.index t (0 : Fin 2) = t.val / 16 % 8 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 % 8 ∧ win0_3.index t (1 : Fin 2) = t.val / 4 % 4 :=
  (by decide +kernel : ∀ t : Fin grid0.N, _)

/-! ## The blocks read at an entry -/

/-- The block of x at point `t`, entry (p, j): row `p` of row tile `t / 16`, column `j` of column tile `t mod 4`. -/
theorem rowsBlock_apply (c : Dev nD) (t : Fin cfg0.N) (p j : Fin 1024) :
    (iblk m c 0 t : Vec F S1024x1024 .bf16) (ix2 p j) = V m c main_v4 (ix2 (tile8 (t.val / 16) p) (tile4 t.val j)) := by
  obtain ⟨e0, e1, -⟩ := idx_facts t
  unfold iblk
  rw [View.read_apply]
  show V m c main_v4 _ = V m c main_v4 _
  refine congrArg (V m c main_v4) (funext fun a => Fin.ext ?_)
  match a with
  | ⟨0, _⟩ => show win0_0.index t (0 : Fin 2) * 1024 + 1 * p.val = 1024 * (t.val / 16 % 8) + p.val; rw [e0]; omega
  | ⟨1, _⟩ => show win0_0.index t (1 : Fin 2) * 1024 + 1 * j.val = 1024 * (t.val % 4) + j.val; rw [e1]; omega

/-- The block of the weight at point `t`, entry (q, j): row `q` of tile `t / 4`, column `j` of tile `t mod 4`. -/
theorem weightBlock_apply (c : Dev nD) (t : Fin cfg0.N) (q j : Fin 1024) :
    (iblk m c 1 t : Vec F S1024x1024 .bf16) (ix2 q j) = V m c main_v2 (ix2 (tile4 (t.val / 4) q) (tile4 t.val j)) := by
  obtain ⟨-, -, e0, e1, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 1024 + 1 * q.val = 1024 * (t.val / 4 % 4) + q.val; rw [e0]; omega
  | ⟨1, _⟩ => show win0_1.index t (1 : Fin 2) * 1024 + 1 * j.val = 1024 * (t.val % 4) + j.val; rw [e1]; omega

/-- The block of the bias row at point `t`, entry (0, q): column `q` of tile `t / 4`. -/
theorem biasBlock_apply (c : Dev nD) (t : Fin cfg0.N) (q : Fin 1024) :
    (iblk m c 2 t : Vec F S1x1024 .f32) (ix2 (0 : Fin 1) q) = V m c main_v5 (ix2 (0 : Fin 1) (tile4 (t.val / 4) q)) := by
  obtain ⟨-, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

end Cert.KernelIdeal.Lora

end
-- ==== Proof.Accumulate.lean ====
/-
  What the accumulator and the output block hold after each grid point, on the extended reals.

  Within a run of four points (one row tile, one column tile, reduction steps 0 to 3) the accumulator at entry
  (p, q) after step k is zero plus the partial products of steps 0 to k, each the sum over one tile of 1024
  columns of x at (row, column) times the weight at (output column, column). By induction on the point: step 0
  starts from the cleared block, every later step adds its partial product to what the point before left, and the
  row tile and column tile do not change inside a run. At step 3 the output block is the accumulator plus the bias.
-/
import proofs.«133105_j51857435132115_2_alg».proof.Proof.Pieces
import proofs.«133105_j51857435132115_2_alg».proof.Proof.Payloads
import proofs.«133105_j51857435132115_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Lora

open Cert.KernelIdeal Cert.KernelIdeal.Gen Cert.LoraLinear

variable (m : (ℓ : Loc nD τ sig) → Buf (Elt Ideal) ℓ)

/-- The flattened, narrowed x the first window moves over, as an array of extended reals. -/
abbrev rowsArr (c : Dev nD) : (⟨2, ![8192, 4096]⟩ : Shape).Idx → EReal := V m c main_v4
/-- The narrowed weight the second window moves over. -/
abbrev weightArr (c : Dev nD) : (⟨2, ![4096, 4096]⟩ : Shape).Idx → EReal := V m c main_v2
/-- The bias row the third window moves over. -/
abbrev biasArr (c : Dev nD) : (⟨2, ![1, 4096]⟩ : Shape).Idx → EReal := V m c main_v5

/-- One update of the accumulator at point `t`: the entry found plus this step's partial product. -/
theorem step_apply (c : Dev nD) (t : Fin cfg0.N) (prev : Vec Ideal S1024x1024 .f32) (p q : Fin 1024) :
    k0_pay2 (F := Ideal) prev (iblk m c 0 t) (iblk m c 1 t) (ix2 p q)
      = prev (ix2 p q) + part (rowsArr m c) (weightArr m c) (tile8 (t.val / 16) p) (tile4 (t.val / 4) q) t.val := by
  refine (update_apply prev (iblk m c 0 t) (iblk m c 1 t) p q).trans ?_
  refine congrArg (prev (ix2 p q) + ·) (Finset.sum_congr rfl fun j _ => ?_)
  exact congrArg₂ (· * ·) (rowsBlock_apply m c t p j) (weightBlock_apply m c t q j)

/-- The accumulator after point `n` holds, at (p, q), the partial sums up to reduction step `n mod 4` of the
    entry at row `p` of row tile `n / 16` and column `q` of column tile `n / 4`. -/
theorem scratch_eq (c : Dev nD) : ∀ (n : ℕ) (h : n < cfg0.N) (p q : Fin 1024),
    (outsAt0 m c n h).2 (ix2 p q)
      = acc (rowsArr m c) (weightArr m c) (tile8 (n / 16) p) (tile4 (n / 4) q) (n % 4)
  | 0, h, p, q => by
    rw [outsAt0_A m c ⟨0, h⟩ rfl (by dsimp only; omega)]
    dsimp only
    rw [scratch_first]
    refine (step_apply m c ⟨0, h⟩ _ p q).trans ?_
    rw [cleared_apply]
    rfl
  | n + 1, h, p, q => by
    have hN : cfg0.N = 128 := N_0
    by_cases h0 : (n + 1) % 4 = 0
    · rw [outsAt0_A m c ⟨n + 1, h⟩ h0 (by dsimp only; omega)]
      dsimp only
      rw [scratch_first]
      refine (step_apply m c ⟨n + 1, h⟩ _ p q).trans ?_
      rw [cleared_apply, h0]
      show 0 + part _ _ _ _ (n + 1) = 0 + part _ _ _ _ 0
      exact congrArg (0 + ·) (part_congr _ _ _ _ (by omega))
    · have e1 : (n + 1) / 16 = n / 16 := by omega
      have e2 : (n + 1) / 4 = n / 4 := by omega
      have e3 : (n + 1) % 4 = n % 4 + 1 := by omega
      have fin : (outsAt0 m c n (Nat.lt_of_succ_lt h)).2 (ix2 p q)
            + part (rowsArr m c) (weightArr m c) (tile8 ((n + 1) / 16) p) (tile4 ((n + 1) / 4) q) (n + 1)
          = acc (rowsArr m c) (weightArr m c) (tile8 ((n + 1) / 16) p) (tile4 ((n + 1) / 4) q) ((n + 1) % 4) := by
        rw [scratch_eq c n _ p q, e1, e2, e3]
        show _ = acc _ _ _ _ (n % 4) + part _ _ _ _ (n % 4 + 1)
        exact congrArg (acc _ _ _ _ (n % 4) + ·) (part_congr _ _ _ _ (by omega))
      by_cases h1 : (n + 1) % 4 = 3
      · rw [outsAt0_C m c ⟨n + 1, h⟩ h0 h1]
        dsimp only
        rw [scratch_last]
        exact (step_apply m c ⟨n + 1, h⟩ _ p q).trans fin
      · rw [outsAt0_B m c ⟨n + 1, h⟩ h0 h1]
        dsimp only
        rw [scratch_middle]
        exact (step_apply m c ⟨n + 1, h⟩ _ p q).trans fin

/-- At the last point of a run (reduction step 3) the output block at (p, q) is the linear layer's entry at row
    `p` of the run's row tile and column `q` of its column tile. -/
theorem out_eq (c : Dev nD) (t : Fin cfg0.N) (h3 : t.val % 4 = 3) (p q : Fin 1024) :
    (outsAt0 m c t.val t.isLt).1 (ix2 p q)
      = rowsLinear (rowsArr m c) (weightArr m c) (biasArr m c) (ix2 (tile8 (t.val / 16) p) (tile4 (t.val / 4) q)) := by
  have h0 : ¬t.val % 4 = 0 := by omega
  have e := outsAt0_C m c t h0 h3
  have e1 := congrArg Prod.fst e
  have e2 := congrArg Prod.snd e
  dsimp only at e1 e2
  rw [out_last] at e1
  rw [scratch_last] at e2
  rw [← e2] at e1
  rw [e1]
  refine (biased_apply _ (iblk m c 2 t) p q).trans ?_
  rw [scratch_eq m c t.val t.isLt p q, h3, biasBlock_apply m c t q]
  exact acc_three_add_bias _ _ _ _ _

end Cert.KernelIdeal.Lora

end
-- ==== Proof.KernelValue.lean ====
/-
  The kernel's result array, on the extended reals, as one function of its arguments.

  Every entry of the [8192, 4096] array the region writes lies in the block of exactly one run of four grid
  points, and that run's last point writes the block: so the array ends holding the linear layer on the flattened
  rows. The host then regroups the 8192 rows as 4 batches of 2048 positions. Read back through the host's flattening
  of x and its one-row layout of the bias, the result at (batch, position, output column) is the sum over the 4096
  input columns of x times the weight, plus the bias.
-/
import proofs.«133105_j51857435132115_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Lora

open Cert.KernelIdeal Cert.KernelIdeal.Gen Cert.LoraLinear

variable (m : (ℓ : Loc nD τ sig) → Buf (Elt Ideal) ℓ) (ρ : Dev nD → PrngReg)

/-- What a run's last point writes back is its block of the linear layer on the flattened rows. -/
theorem flushed_eq (c : Dev nD) (t : Fin cfg0.N) (hf : (cfg0.win 3).flush t = true) :
    (dats m 0 c).flushed 3 t
      = ((cfg0.win 3).blk t).view.read (Elt Ideal) (rowsLinear (rowsArr m c) (weightArr m c) (biasArr m c)) := by
  have h3 : t.val % 4 = 3 := (flush0_3 t).mp hf
  obtain ⟨-, -, -, -, -, -, e0, e1⟩ := idx_facts t
  show (cfg0.win 3).cut (grid0.coords t) ((dats m 0 c).after 3 t) = _
  rw [after0_3]
  have key : ∀ y : S1024x1024.Idx, (outsAt0 m c t.val t.isLt).1 y
      = ((cfg0.win 3).blk t).view.read (Elt Ideal) (rowsLinear (rowsArr m c) (weightArr m c) (biasArr m c)) y := by
    intro y
    obtain ⟨p, q, rfl⟩ : ∃ (p q : Fin 1024), y = ix2 p q := ⟨y 0, y 1, eq_ix2 y⟩
    rw [out_eq m c t h3 p q, View.read_apply]
    show rowsLinear _ _ _ _ = rowsLinear _ _ _ (((cfg0.win 3).blk t).view.emb (ix2 p q))
    refine congrArg (rowsLinear _ _ _) (funext fun a => Fin.ext ?_)
    match a with
    | ⟨0, _⟩ => show 1024 * (t.val / 16 % 8) + p.val = win0_3.index t (0 : Fin 2) * 1024 + 1 * p.val; rw [e0]; omega
    | ⟨1, _⟩ => show 1024 * (t.val / 4 % 4) + q.val = win0_3.index t (1 : Fin 2) * 1024 + 1 * q.val; rw [e1]; omega
  funext y
  exact key y

/-- Every entry of the result array is in the block some run's last point writes. -/
theorem covered (i : S8192x4096.Idx) :
    ∃ t : Fin cfg0.N, (cfg0.win 3).flush t = true ∧ i ∈ ((cfg0.win 3).blk t).view.set := by
  have hN : cfg0.N = 128 := N_0
  have h0 : (i 0).val < 8192 := (i 0).isLt
  have h1 : (i 1).val < 4096 := (i 1).isLt
  have tv : ∀ (t : Fin cfg0.N), t.val = 16 * ((i 0).val / 1024) + 4 * ((i 1).val / 1024) + 3 →
      (cfg0.win 3).flush t = true ∧ i ∈ ((cfg0.win 3).blk t).view.set := by
    intro t ht
    obtain ⟨-, -, -, -, -, -, e0, e1⟩ := idx_facts t
    refine ⟨(flush0_3 t).mpr (by omega), ?_⟩
    show i ∈ ((View.whole main_v6).slice (win0_3.rect t)).set
    rw [View.set_slice_whole, Rect.mem_set_unit]
    intro a
    match a with
    | ⟨0, _⟩ =>
      show win0_3.index t (0 : Fin 2) * 1024 ≤ (i 0).val ∧ (i 0).val < win0_3.index t (0 : Fin 2) * 1024 + 1024
      rw [e0]; omega
    | ⟨1, _⟩ =>
      show win0_3.index t (1 : Fin 2) * 1024 ≤ (i 1).val ∧ (i 1).val < win0_3.index t (1 : Fin 2) * 1024 + 1024
      rw [e1]; omega
  exact ⟨⟨16 * ((i 0).val / 1024) + 4 * ((i 1).val / 1024) + 3, by omega⟩, tv _ rfl⟩

/-- So the region's result array ends holding the linear layer on the flattened rows. -/
theorem final (c : Dev nD) :
    (dats m 0 c).arrAt 3 cfg0.N = rowsLinear (rowsArr m c) (weightArr m c) (biasArr m c) :=
  (dats m 0 c).arrAt_eq_of_cover 3 _ (flushed_eq m c) covered

/-- The program's result: that array with its 8192 rows regrouped as 4 batches of 2048 positions. -/
theorem tail_eq (c : Dev nD) :
    Pipeline.afterTail₀ cfgs (dats m) 0 (V0 m) [hostOps1] c main_v7
      = shapeCast S4x2048x4096 (rowsLinear (rowsArr m c) (weightArr m c) (biasArr m c)) shapeCasts_S8192x4096_S4x2048x4096 := by
  unfold Pipeline.afterTail₀
  show StableHlo.after hostOps1 _ (Proc.devRef .tc main_v7) = _
  after_results
  have e := (Pipeline.withArrays_arr spec0 launch0.win.arr_inj c (V0 m c) (fun w => (dats m 0 c).arrAt w cfg0.N) 3).trans (final m c)
  show shapeCast S4x2048x4096 (Pipeline.withArrays spec0 c (V0 m c) (fun w => (dats m 0 c).arrAt w cfg0.N)
      (Proc.devRef .tc (Pipeline.arrRef spec0 3))) shapeCasts_S8192x4096_S4x2048x4096 = _
  rw [e]

/-- The flattened x at row (batch, position) is x at (batch, position): narrowing changes nothing on the extended reals. -/
theorem rows_flat (c : Dev nD) (bt : Fin 4) (s : Fin 2048) (cc : Fin 4096) :
    rowsArr m c (ix2 (flatRow bt s) cc) = m ((c : Thread nD τ).loc main_arg0) (ix3 bt s cc) := by
  show (V m c main_v4 : S8192x4096.Idx → Elt Ideal .bf16) (ix2 (flatRow bt s) cc) = _
  rw [V_rows]
  show shapeCast S8192x4096 (m ((c : Thread nD τ).loc main_arg0)) shapeCasts_S4x2048x4096_S8192x4096 (ix2 (flatRow bt s) cc) = _
  exact shapeCast_apply _ _ _ _ (by
    show (S4x2048x4096.rowMajor (ix3 bt s cc)).val = (S8192x4096.rowMajor (ix2 (flatRow bt s) cc)).val
    rw [Shape.rowMajor_val_three, Shape.rowMajor_val_two]
    show (bt.val * 2048 + s.val) * 4096 + cc.val = (2048 * bt.val + s.val) * 4096 + cc.val
    omega)

/-- The bias row at (0, n) is the bias at n. -/
theorem bias_flat (c : Dev nD) (n : Fin 4096) :
    biasArr m c (ix2 (0 : Fin 1) n) = m ((c : Thread nD τ).loc main_arg2) (ix1 n) := by
  show (V m c main_v5 : S1x4096.Idx → Elt Ideal .f32) (ix2 (0 : Fin 1) n) = _
  rw [V_biasRow]
  exact shapeCast_a_1a_apply _ _ 0 n

/-- The program's result is the linear layer of x, the narrowed weight and the bias, entry by entry. -/
theorem value (c : Dev nD) :
    Pipeline.afterTail₀ cfgs (dats m) 0 (V0 m) [hostOps1] c main_v7
      = linear3 (weightArr m c) (m ((c : Thread nD τ).loc main_arg0)) (m ((c : Thread nD τ).loc main_arg2)) := by
  rw [tail_eq]
  funext i
  obtain ⟨bt, s, o, rfl⟩ : ∃ (bt : Fin 4) (s : Fin 2048) (o : Fin 4096), i = ix3 bt s o := ⟨i 0, i 1, i 2, eq_ix3 i⟩
  refine (shapeCast_apply (rowsLinear (rowsArr m c) (weightArr m c) (biasArr m c)) shapeCasts_S8192x4096_S4x2048x4096
    (ix3 bt s o) (ix2 (flatRow bt s) o) (by
      show (S8192x4096.rowMajor (ix2 (flatRow bt s) o)).val = (S4x2048x4096.rowMajor (ix3 bt s o)).val
      rw [Shape.rowMajor_val_three, Shape.rowMajor_val_two]
      show (2048 * bt.val + s.val) * 4096 + o.val = (bt.val * 2048 + s.val) * 4096 + o.val
      omega)).trans ?_
  exact rowsLinear_flat _ _ _ _ _ (rows_flat m c) (bias_flat m c) bt s o

/-- The run, read: the result at the linear layer, the five arguments unchanged. -/
theorem run : θ_run defs (onTc (τ := τ) (main (F := Ideal))) ⟨m, fun _ => 0, ρ⟩ fun r => ∀ c : Dev nD,
      r.2.mem ((c.tc : Thread nD τ).loc main_v7)
        = linear3 (weightArr m c) (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Lora

end
-- ==== Proof.RefValue.lean ====
/-
  The reference's result, on the extended reals, is the same linear layer of x, its weight and the bias.

  The reference contracts x's last axis against the weight's second axis, giving the entry at
  (batch, position, output column) as the sum over the 4096 input columns of x times the weight, and adds the bias
  broadcast along batch and position.
-/
import proofs.«133105_j51857435132115_2_alg».proof.Proof.Gen.ReferenceIdeal.Read
import proofs.«133105_j51857435132115_2_alg».proof.Proof.Spec

noncomputable section

open Idealize.ShloMosaic Idealize.ShloMosaic.ValueIdx

namespace Cert.ReferenceIdeal.Lora

open Cert.ReferenceIdeal Cert.ReferenceIdeal.Read Cert.LoraLinear

/-- The reference's result is the linear layer of x, the reference's weight and the bias. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    val_main_v5 (F := Ideal) x0 x1 x2 x3 x4 = linear3 (val_main_v1 (F := Ideal) x1 x3 x4) x0 x2 := by
  funext i
  have el : ∀ k, lidx_main_v2 i k = ix3 (i 0) (i 1) k := fun k => funext fun a => by
    match a with
    | ⟨0, _⟩ => rfl
    | ⟨1, _⟩ => rfl
    | ⟨2, _⟩ => rfl
  have er : ∀ k, ridx_main_v2 i k = ix2 (i 2) k := fun k => funext fun a => by
    match a with
    | ⟨0, _⟩ => rfl
    | ⟨1, _⟩ => rfl
  have eb : idx_main_v3 (idx_main_v4 i) = ix1 (i 2) := funext fun a => by
    match a with
    | ⟨0, _⟩ => rfl
  rw [val_main_v5_apply, val_main_v2_apply, val_main_v4_apply, val_main_v3_apply]
  simp only [el, er, eb]
  rfl

end Cert.ReferenceIdeal.Lora

end
-- ==== Proof.lean ====
/-
  The kernel computes a linear layer whose weight is an old weight plus a low-rank product:
  out(batch, position, o) = sum over the 4096 input columns i of x(batch, position, i) * W(o, i), plus bias(o),
  with W = old_weight + lora_down · lora_up. It flattens batch and position into 8192 rows, narrows x and W,
  and tiles the product 8 × 4 × 4: for each row tile and column tile it adds up the four partial products over
  tiles of 1024 input columns in an accumulator that starts at zero, and adds the bias at the last step. The
  reference contracts all 4096 columns at once.

  On the extended reals narrowing is the identity, both programs form W by the same sum, and a sum over 4096
  columns is the sum of its four runs of 1024 whatever the entries are (addition is commutative and associative
  there, infinities included): so the two results are equal entry by entry, and the finiteness of the inputs is
  never used. The three frame claims are the generated frames; the idealization rewrote nothing.
-/
import proofs.«133105_j51857435132115_2_alg».proof.Defs
import proofs.«133105_j51857435132115_2_alg».proof.Proof.Gen.Kernel
import proofs.«133105_j51857435132115_2_alg».proof.Proof.Gen.Kernel.Skeleton
import proofs.«133105_j51857435132115_2_alg».proof.Proof.Gen.Kernel.Launch
import proofs.«133105_j51857435132115_2_alg».proof.Proof.Gen.Kernel.Points
import proofs.«133105_j51857435132115_2_alg».proof.Proof.Gen.Kernel.Frame
import proofs.«133105_j51857435132115_2_alg».proof.Proof.Gen.KernelIdeal
import proofs.«133105_j51857435132115_2_alg».proof.Proof.Gen.KernelIdeal.Skeleton
import proofs.«133105_j51857435132115_2_alg».proof.Proof.Gen.KernelIdeal.Launch
import proofs.«133105_j51857435132115_2_alg».proof.Proof.Gen.KernelIdeal.Points
import proofs.«133105_j51857435132115_2_alg».proof.Proof.Gen.KernelIdeal.Frame
import proofs.«133105_j51857435132115_2_alg».proof.Proof.Gen.ReferenceIdeal
import proofs.«133105_j51857435132115_2_alg».proof.Proof.Gen.Pre_finite_inputs
import proofs.«133105_j51857435132115_2_alg».proof.Proof.Gen.ReferenceIdeal.Run
import proofs.«133105_j51857435132115_2_alg».proof.Proof.Gen.ReferenceIdeal.Read
import proofs.«133105_j51857435132115_2_alg».proof.Proof.KernelValue
import proofs.«133105_j51857435132115_2_alg».proof.Proof.RefValue
import Idealize.ShloMosaic.Adequacy
import Idealize.ShloMosaic.Init

noncomputable section

namespace Cert.Proof

open Idealize.ShloMosaic Idealize.ShloMosaic.TcCoe Idealize.SL.Sem Cert.LoraLinear

/-- The kernel's narrowed weight is the reference's weight: the old weight plus the product of the low-rank factors. -/
theorem weight_eq (a1 : (⟨Cert.ReferenceIdeal.S4096x4096, .f32⟩ : BufTy).Contents (Elt Ideal))
    (a3 : (⟨Cert.ReferenceIdeal.S4096x16, .f32⟩ : BufTy).Contents (Elt Ideal))
    (a4 : (⟨Cert.ReferenceIdeal.S16x4096, .f32⟩ : BufTy).Contents (Elt Ideal)) :
    (truncf .bf16 (addf a1 (Host.dotGeneral (F := Ideal) (φ₁ := .f32) (φ₂ := .f32) Cert.KernelIdeal.dot_S4096x16_S16x4096_S4096x4096_1_0_0_1_n_n none a3 a4))
        Cert.KernelIdeal.Facts₀.bitsLt_bf16_f32 : Cert.KernelIdeal.S4096x4096.Idx → Ideal .bf16)
      = Cert.ReferenceIdeal.Read.val_main_v1 (F := Ideal) a1 a3 a4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the linear layer of x, the weight and the bias, from arguments that agree. -/
theorem algebraic : Cert.algebraic_KernelIdeal_ReferenceIdeal := by
  intro m ρ m' ρ' _ hagree
  refine ⟨fun c => linear3 (Cert.KernelIdeal.Lora.weightArr m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Lora.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Lora.result_eq,
    (hagree c).1, (hagree c).2.1, (hagree c).2.2.1, (hagree c).2.2.2.1, (hagree c).2.2.2.2]
  show linear3 _ _ _ = linear3 (Cert.KernelIdeal.Gen.V m c Cert.KernelIdeal.main_v2) _ _
  rw [Cert.KernelIdeal.Lora.V_weight m c, weight_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
